-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x64 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩

abbrev nBuf : Space → Nat
  | .hbm => 60
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S128x128, .f32⟩
  | .hbm, ⟨56, _⟩ => ⟨S128x128, .f32⟩
  | .hbm, ⟨57, _⟩ => ⟨S128, .f32⟩
  | .hbm, ⟨58, _⟩ => ⟨S50000x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  shapeCasts_S128_S128 : S128.ShapeCasts S128
  slices_S5000x128_o0_0_S5000x64 : S5000x128.Slices ![0, 0] S5000x64
  inb_S5000x64_S5000x64_0_0 : ∀ a, (![0, 0] : Fin 2 → Nat) a + S5000x64.size a ≤ S5000x64.size a
  h_S5000x64 : 0 < S5000x64.numel
  slices_S5000x128_o0_64_S5000x64 : S5000x128.Slices ![0, 64] S5000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v37_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  One mean-aggregating graph layer, stated index by index on the extended reals, and the two arrangements of it that
  have to meet.

  For a node `p` and an output feature `q` the layer computes

      (∑ₖ (A p k / max (cnt p) 1) · Wl k q) + b q + ∑ₖ X p k · Wr k q

  where `A` is the sum of the neighbours' feature rows, `cnt` the number of neighbours, `X` the node's own
  features. The other arrangement scales the row of `A` by a reciprocal `1 / max (cnt p) 1` computed once per node
  and adds the bias last. Two facts join them, and both hold at every extended real, the infinities included:
  `max c 1` is never zero, so dividing by it IS multiplying by its inverse and `a · (1 / max c 1) = a / max c 1`;
  and addition of extended reals is commutative and associative, so the bias may be added last.
-/
import Idealize.ShloMosaic.Lib.ValueIdx
import Idealize.ShloMosaic.PureOps.Ideal.Laws

noncomputable section

namespace Cert.Sage

open Idealize.ShloMosaic Idealize.ShloMosaic.ValueIdx

/-- The single-precision word of `1.0`, as the extended real it denotes. -/
abbrev one : EReal := Ideal.ofBits .f32 0x3F800000#32
/-- The single-precision word of `+0.0`, as the extended real it denotes. -/
abbrev zero : EReal := Ideal.ofBits .f32 0x00000000#32

/-- The word `0x3F800000` (sign 0, biased exponent 127, fraction 0) denotes the number one. -/
theorem one_eq : one = 1 := by
  simp [one, Ideal.ofBits, Ideal.ieee, -EReal.coe_mul]; norm_num

/-- A count clamped below by one is not zero. -/
theorem clamp_ne_zero (c : EReal) : max c one ≠ 0 := by
  rw [one_eq]
  exact ne_of_gt (lt_of_lt_of_le zero_lt_one (le_max_right c 1))

/-- Scaling by the reciprocal of a clamped count is dividing by it: off zero the quotient of extended reals is the
    product with the inverse, and `1 · y⁻¹ = y⁻¹`. -/
theorem mul_recip_clamp (a c : EReal) : a * Ideal.div one (max c one) = Ideal.div a (max c one) := by
  have h := clamp_ne_zero c
  unfold Ideal.div
  rw [if_neg h, if_neg h, one_eq, one_mul]

variable {N K M : ℕ}

/-- The layer at node `p`, output feature `q`: the neighbour mean times `Wl`, plus the bias, plus the node's own
    features times `Wr`. -/
def layer (A X : (⟨2, ![N, K]⟩ : Shape).Idx → EReal) (cnt : (⟨1, ![N]⟩ : Shape).Idx → EReal)
    (Wl Wr : (⟨2, ![K, M]⟩ : Shape).Idx → EReal) (b : (⟨1, ![M]⟩ : Shape).Idx → EReal) (p : Fin N) (q : Fin M) : EReal :=
  (∑ k : Fin K, Ideal.div (A (ix2 p k)) (max (cnt (ix1 p)) one) * Wl (ix2 k q)) + b (ix1 q)
    + ∑ k : Fin K, X (ix2 p k) * Wr (ix2 k q)

/-- The other arrangement: the row of `A` scaled by a per-node factor `s p` (a column), both products summed, the
    bias added last. -/
def scaledLayer (A X : (⟨2, ![N, K]⟩ : Shape).Idx → EReal) (s : (⟨2, ![N, 1]⟩ : Shape).Idx → EReal)
    (Wl Wr : (⟨2, ![K, M]⟩ : Shape).Idx → EReal) (b : (⟨1, ![M]⟩ : Shape).Idx → EReal) (p : Fin N) (q : Fin M) : EReal :=
  (∑ k : Fin K, (A (ix2 p k) * s (ix2 p (0 : Fin 1))) * Wl (ix2 k q)) + (∑ k : Fin K, X (ix2 p k) * Wr (ix2 k q))
    + b (ix1 q)

/-- When the factor is the reciprocal of the clamped count, the two arrangements are the same number. -/
theorem scaledLayer_eq_layer (A X : (⟨2, ![N, K]⟩ : Shape).Idx → EReal) (s : (⟨2, ![N, 1]⟩ : Shape).Idx → EReal)
    (cnt : (⟨1, ![N]⟩ : Shape).Idx → EReal) (Wl Wr : (⟨2, ![K, M]⟩ : Shape).Idx → EReal)
    (b : (⟨1, ![M]⟩ : Shape).Idx → EReal) (p : Fin N) (q : Fin M)
    (hs : s (ix2 p (0 : Fin 1)) = Ideal.div one (max (cnt (ix1 p)) one)) :
    scaledLayer A X s Wl Wr b p q = layer A X cnt Wl Wr b p q := by
  unfold scaledLayer layer
  rw [hs, add_right_comm]
  refine congrArg (· + _) (congrArg (· + _) (Finset.sum_congr rfl fun k _ => ?_))
  rw [mul_recip_clamp]

/-- The layer as a whole array `[N, M]`. -/
def layerArr (A X : (⟨2, ![N, K]⟩ : Shape).Idx → EReal) (cnt : (⟨1, ![N]⟩ : Shape).Idx → EReal)
    (Wl Wr : (⟨2, ![K, M]⟩ : Shape).Idx → EReal) (b : (⟨1, ![M]⟩ : Shape).Idx → EReal) :
    (⟨2, ![N, M]⟩ : Shape).Idx → EReal := fun i => layer A X cnt Wl Wr b (i 0) (i 1)

/-- The layer followed by the rectifier `max · 0`, as a whole array. -/
def reluLayerArr (A X : (⟨2, ![N, K]⟩ : Shape).Idx → EReal) (cnt : (⟨1, ![N]⟩ : Shape).Idx → EReal)
    (Wl Wr : (⟨2, ![K, M]⟩ : Shape).Idx → EReal) (b : (⟨1, ![M]⟩ : Shape).Idx → EReal) :
    (⟨2, ![N, M]⟩ : Shape).Idx → EReal := fun i => max (layer A X cnt Wl Wr b (i 0) (i 1)) zero

theorem layerArr_apply (A X : (⟨2, ![N, K]⟩ : Shape).Idx → EReal) (cnt : (⟨1, ![N]⟩ : Shape).Idx → EReal)
    (Wl Wr : (⟨2, ![K, M]⟩ : Shape).Idx → EReal) (b : (⟨1, ![M]⟩ : Shape).Idx → EReal) (p : Fin N) (q : Fin M) :
    layerArr A X cnt Wl Wr b (ix2 p q) = layer A X cnt Wl Wr b p q := rfl

theorem reluLayerArr_apply (A X : (⟨2, ![N, K]⟩ : Shape).Idx → EReal) (cnt : (⟨1, ![N]⟩ : Shape).Idx → EReal)
    (Wl Wr : (⟨2, ![K, M]⟩ : Shape).Idx → EReal) (b : (⟨1, ![M]⟩ : Shape).Idx → EReal) (p : Fin N) (q : Fin M) :
    reluLayerArr A X cnt Wl Wr b (ix2 p q) = max (layer A X cnt Wl Wr b p q) zero := rfl

end Cert.Sage

end
-- ==== Proof.Result.lean ====
/-
  The two results as functions of the eleven arguments.

  With `agg X` the sum over the edges into a node of the source node's row of `X` and `cnt` the number of edges into
  a node (both read off the edge list, argument 1), the hidden features are the rectified layer of the node features
  with the first layer's weights, and each result is the layer of the hidden features with one head's weights.
-/
import proofs.«133211_j7421703487977_2_alg».proof.Proof.Gen.ReferenceIdeal.Read
import proofs.«133211_j7421703487977_2_alg».proof.Proof.Spec

noncomputable section

namespace Cert.Sage.Result

open Idealize.ShloMosaic Cert.ReferenceIdeal Cert.ReferenceIdeal.Read

/-- The hidden features. -/
def hid (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : (⟨S50000x128, .f32⟩ : BufTy).Contents (Elt Ideal) :=
  reluLayerArr (N := 50000) (K := 128) (M := 128) (val_main_v13 (F := Ideal) x0 x1) x0 (val_main_v17 (F := Ideal) x1) x2 x4 x3

/-- One output head: the layer of the hidden features with the head's weights `wl`, `wr` and bias `b`. -/
def out (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (wl : (⟨S128x64, .f32⟩ : BufTy).Contents (Elt Ideal)) (b : (⟨S64, .f32⟩ : BufTy).Contents (Elt Ideal)) (wr : (⟨S128x64, .f32⟩ : BufTy).Contents (Elt Ideal)) : (⟨S50000x64, .f32⟩ : BufTy).Contents (Elt Ideal) :=
  layerArr (N := 50000) (K := 128) (M := 64) (val_main_v13 (F := Ideal) (hid x0 x1 x2 x3 x4) x1) (hid x0 x1 x2 x3 x4)
    (val_main_v17 (F := Ideal) x1) wl wr b

end Cert.Sage.Result

end
-- ==== Proof.KernelRun.lean ====
/-
  The idealized kernel program's run, with its two result arrays named.

  @main is four segments: host operations, the first grid, host operations, the second grid. The buffer contents at
  the four boundaries are a fold from the launch memory; the run ends with every buffer that is not scoped to a
  kernel at the last boundary's contents. Reading the two result buffers and the eleven argument buffers off that
  state gives: every weakly fair execution terminates, nothing faults, the results hold the last boundary's contents
  at their buffers and the arguments are as launched.
-/
import proofs.«133211_j7421703487977_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, every argument as launched. -/
theorem run : θ_run defs (onTc (τ := τ) (main (F := F))) ⟨m, fun _ => 0, ρ⟩ (fun r => ∀ c : Dev nD,
      r.2.mem ((c.tc : Thread nD τ).loc main_v37_0) = W4 m ρ c (Proc.devRef .tc main_v37_0)
      ∧ r.2.mem ((c.tc : Thread nD τ).loc main_v37_1) = W4 m ρ c (Proc.devRef .tc main_v37_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37_0 (by decide)),
       h c _ (mem_uc main_v37_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.Sage.KernelRun

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.Heads.lean ====
/-
  Two output heads stored side by side.

  A wide matrix `[K, 128]` holds two heads of 64 columns each; `colsAt o W` is the head that starts at column `o`,
  and `entriesAt o b` the same for a bias vector of 128 entries. When the wide array is the concatenation of two
  narrow ones, the head at offset 0 is the first piece and the head at offset 64 the second.
-/
import Idealize.ShloMosaic.Lib.ValueIdx
import Idealize.ShloMosaic.Lib.Pipeline.Value

noncomputable section

namespace Cert.Sage

open Idealize.ShloMosaic Idealize.ShloMosaic.ValueIdx

theorem head_col_lt (o : ℕ) (ho : o + 64 ≤ 128) (q : Fin 64) : o + q.val < 128 := by omega

/-- Columns `o … o + 63` of a matrix of 128 columns. -/
def colsAt {K : ℕ} (o : ℕ) (ho : o + 64 ≤ 128) (W : (⟨2, ![K, 128]⟩ : Shape).Idx → EReal) :
    (⟨2, ![K, 64]⟩ : Shape).Idx → EReal :=
  fun i => W (ix2 (i 0) (Fin.mk (o + (i 1).val) (head_col_lt o ho (i 1))))

/-- Entries `o … o + 63` of a vector of 128 entries. -/
def entriesAt (o : ℕ) (ho : o + 64 ≤ 128) (b : (⟨1, ![128]⟩ : Shape).Idx → EReal) : (⟨1, ![64]⟩ : Shape).Idx → EReal :=
  fun i => b (ix1 (Fin.mk (o + (i 0).val) (head_col_lt o ho (i 0))))

theorem colsAt_apply {K : ℕ} (o : ℕ) (ho : o + 64 ≤ 128) (W : (⟨2, ![K, 128]⟩ : Shape).Idx → EReal) (k : Fin K) (q : Fin 64) :
    colsAt o ho W (ix2 k q) = W (ix2 k ⟨o + q.val, head_col_lt o ho q⟩) := rfl

theorem entriesAt_apply (o : ℕ) (ho : o + 64 ≤ 128) (b : (⟨1, ![128]⟩ : Shape).Idx → EReal) (q : Fin 64) :
    entriesAt o ho b (ix1 q) = b (ix1 ⟨o + q.val, head_col_lt o ho q⟩) := rfl

variable {K : ℕ}

/-- The first head of two matrices laid side by side is the first matrix. -/
theorem colsAt_concat_fst (W₁ W₂ : (⟨2, ![K, 64]⟩ : Shape).Idx → EReal)
    (h : Shape.Concatenates [(⟨2, ![K, 64]⟩ : Shape), ⟨2, ![K, 64]⟩] ⟨2, ![K, 128]⟩ 1) :
    colsAt 0 (by omega) (concatenate ⟨2, ![K, 128]⟩ 1 [⟨⟨2, ![K, 64]⟩, W₁⟩, ⟨⟨2, ![K, 64]⟩, W₂⟩] h) = W₁ := by
  funext i
  obtain ⟨k, q, rfl⟩ : ∃ (k : Fin K) (q : Fin 64), i = ix2 k q := ⟨i 0, i 1, eq_ix2 i⟩
  rw [colsAt_apply]
  refine concatenate_pair_apply_left (t := ⟨2, ![K, 128]⟩) (1 : Fin 2) W₁ W₂ h _ rfl (ix2 k q) fun b => ?_
  match b with
  | ⟨0, _⟩ => rfl
  | ⟨1, _⟩ => show q.val = 0 + q.val; omega

/-- The second head of two matrices laid side by side is the second matrix. -/
theorem colsAt_concat_snd (W₁ W₂ : (⟨2, ![K, 64]⟩ : Shape).Idx → EReal)
    (h : Shape.Concatenates [(⟨2, ![K, 64]⟩ : Shape), ⟨2, ![K, 64]⟩] ⟨2, ![K, 128]⟩ 1) :
    colsAt 64 (by omega) (concatenate ⟨2, ![K, 128]⟩ 1 [⟨⟨2, ![K, 64]⟩, W₁⟩, ⟨⟨2, ![K, 64]⟩, W₂⟩] h) = W₂ := by
  funext i
  obtain ⟨k, q, rfl⟩ : ∃ (k : Fin K) (q : Fin 64), i = ix2 k q := ⟨i 0, i 1, eq_ix2 i⟩
  rw [colsAt_apply]
  refine concatenate_pair_apply_right (t := ⟨2, ![K, 128]⟩) (1 : Fin 2) W₁ W₂ h _ rfl rfl (ix2 k q) (fun b hb => ?_) ?_
  · match b with
    | ⟨0, _⟩ => rfl
    | ⟨1, _⟩ => exact absurd rfl hb
  · show q.val + 64 = 64 + q.val; omega

/-- The first half of two vectors laid end to end is the first vector. -/
theorem entriesAt_concat_fst (b₁ b₂ : (⟨1, ![64]⟩ : Shape).Idx → EReal)
    (h : Shape.Concatenates [(⟨1, ![64]⟩ : Shape), ⟨1, ![64]⟩] ⟨1, ![128]⟩ 0) :
    entriesAt 0 (by omega) (concatenate ⟨1, ![128]⟩ 0 [⟨⟨1, ![64]⟩, b₁⟩, ⟨⟨1, ![64]⟩, b₂⟩] h) = b₁ := by
  funext i
  obtain ⟨q, rfl⟩ : ∃ q : Fin 64, i = ix1 q := ⟨i 0, eq_ix1 i⟩
  rw [entriesAt_apply]
  refine concatenate_pair_apply_left (t := ⟨1, ![128]⟩) (0 : Fin 1) b₁ b₂ h _ rfl (ix1 q) fun b => ?_
  match b with
  | ⟨0, _⟩ => show q.val = 0 + q.val; omega

/-- The second half of two vectors laid end to end is the second vector. -/
theorem entriesAt_concat_snd (b₁ b₂ : (⟨1, ![64]⟩ : Shape).Idx → EReal)
    (h : Shape.Concatenates [(⟨1, ![64]⟩ : Shape), ⟨1, ![64]⟩] ⟨1, ![128]⟩ 0) :
    entriesAt 64 (by omega) (concatenate ⟨1, ![128]⟩ 0 [⟨⟨1, ![64]⟩, b₁⟩, ⟨⟨1, ![64]⟩, b₂⟩] h) = b₂ := by
  funext i
  obtain ⟨q, rfl⟩ : ∃ q : Fin 64, i = ix1 q := ⟨i 0, eq_ix1 i⟩
  rw [entriesAt_apply]
  refine concatenate_pair_apply_right (t := ⟨1, ![128]⟩) (0 : Fin 1) b₁ b₂ h _ rfl rfl (ix1 q) (fun b hb => ?_) ?_
  · match b with
    | ⟨0, _⟩ => exact absurd rfl hb
  · show q.val + 64 = 64 + q.val; omega

end Cert.Sage

end
-- ==== Proof.Body1.lean ====
/-
  The first kernel body's stored value, read at an index.

  The body loads a block of neighbour sums `a` (5000 rows of 128), the matching rows `x` of the node features, the
  column `s` of per-node factors, two 128×128 weight matrices and a bias row, and stores

      max ((a · s) Wl + x Wr + b) 0 .

  At the extended reals the roundings to the narrow format are the identity and a product of matrices accumulated
  from zero is the plain sum over the shared axis, so at row `p`, column `q` the stored value is the rectifier of the
  scaled layer of `Spec.lean`.
-/
import proofs.«133211_j7421703487977_2_alg».proof.Proof.Gen.KernelIdeal.Skeleton
import proofs.«133211_j7421703487977_2_alg».proof.Proof.LibIndex
import proofs.«133211_j7421703487977_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Idealize.ShloMosaic Idealize.ShloMosaic.ValueIdx Cert.KernelIdeal Cert.KernelIdeal.Gen Cert.LayoutLib

/-- The body's matrix product is the plain rows-by-columns one. -/
theorem dot_is_plain : dot_S5000x128_S128x128_S5000x128_1_0_0_1_n_n = DotDims.plain 5000 128 128 := rfl

/-- A block of 5000 rows times a 128×128 matrix, accumulated from zero, at row `p` and column `q`: the sum over the
    shared axis of the products. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply]
  exact dot_plain_sum dot_S5000x128_S128x128_S5000x128_1_0_0_1_n_n dot_is_plain l r p q

/-- The first body's stored value at row `p`, column `q`. -/
theorem pay_layer1 (a : Vec Ideal S5000x128 .f32) (s : Vec Ideal S5000x1 .f32) (x : Vec Ideal S5000x128 .f32)
    (wl wr : Vec Ideal S128x128 .f32) (b : Vec Ideal S128 .f32) (p : Fin 5000) (q : Fin 128) :
    k0_pay1 a s x wl wr b (ix2 p q)
      = max (scaledLayer (N := 5000) (K := 128) (M := 128) a x s wl wr b p q) zero := by
  unfold k0_pay1
  rw [maximumf_apply, addf_apply, addf_apply, matmul_at, matmul_at, broadcast_apply,
    broadcastTo_1b_ab_apply, shapeCast_a_1a_apply]
  unfold scaledLayer
  simp only [truncf_apply, mulf_apply, shapeCast_self, broadcastTo_col_apply]
  rfl

/-- The same for a block cut out of whole arrays. Let the loaded blocks be rows `base … base + 4999` of the whole
    arrays `A`, `X` and of the factor column `S` (an entry of a block at `y` is the entry of its array at any `i`
    with `i₀ = base + y₀`, `i₁ = y₁`), and the weights and the bias the whole small arrays. Then what the body stores at
    `y` is the rectified scaled layer of the WHOLE arrays at `i`. -/
theorem layer1_block (A X : S50000x128.Idx → EReal) (S : S50000x1.Idx → EReal) (Wl Wr : S128x128.Idx → EReal)
    (B : S128.Idx → EReal)
    (a : Vec Ideal S5000x128 .f32) (s : Vec Ideal S5000x1 .f32) (x : Vec Ideal S5000x128 .f32)
    (wl wr : Vec Ideal S128x128 .f32) (b : Vec Ideal S128 .f32) (base : ℕ)
    (ha : ∀ (y : S5000x128.Idx) (i : S50000x128.Idx), (i 0).val = base + (y 0).val → (i 1).val = (y 1).val → a y = A i)
    (hx : ∀ (y : S5000x128.Idx) (i : S50000x128.Idx), (i 0).val = base + (y 0).val → (i 1).val = (y 1).val → x y = X i)
    (hs : ∀ (y : S5000x1.Idx) (i : S50000x1.Idx), (i 0).val = base + (y 0).val → s y = S i)
    (hwl : wl = Wl) (hwr : wr = Wr) (hb : b = B)
    (y : S5000x128.Idx) (i : S50000x128.Idx) (hi0 : (i 0).val = base + (y 0).val) (hi1 : (i 1).val = (y 1).val) :
    k0_pay1 a s x wl wr b y
      = max (scaledLayer (N := 50000) (K := 128) (M := 128) A X S Wl Wr B (i 0) (i 1)) zero := by
  obtain ⟨p, q, rfl⟩ : ∃ (p : Fin 5000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext hi1
  subst hwl hwr hb
  rw [pay_layer1]
  refine congrArg (max · zero) ?_
  unfold scaledLayer
  have eA : ∀ k : Fin 128, a (ix2 p k) = A (ix2 n k) := fun k => ha (ix2 p k) (ix2 n k) hi0 rfl
  have eX : ∀ k : Fin 128, x (ix2 p k) = X (ix2 n k) := fun k => hx (ix2 p k) (ix2 n k) hi0 rfl
  have eS : s (ix2 p (0 : Fin 1)) = S (ix2 n (0 : Fin 1)) := hs (ix2 p (0 : Fin 1)) (ix2 n (0 : Fin 1)) hi0
  simp only [eA, eX, eS]

end Cert.Sage.Body

end
-- ==== Proof.Region0.lean ====
/-
  What the first grid leaves in its output array, for ANY contents `V` the region is entered with.

  The grid has ten points; point `t` reads rows `5000 t … 5000 t + 4999` of the neighbour sums, of the node features
  and of the factor column, the whole of the two weight matrices and of the bias, and writes the same rows of the
  output. Every output row lies in exactly one such band, so after the last point the output array is, row by row,
  the rectified scaled layer of the WHOLE entry arrays.
-/
import proofs.«133211_j7421703487977_2_alg».proof.Proof.Gen.KernelIdeal.Frame
import proofs.«133211_j7421703487977_2_alg».proof.Proof.Spec
import proofs.«133211_j7421703487977_2_alg».proof.Proof.Body1
import Idealize.ShloMosaic.Lib.ValueIdx
import Idealize.ShloMosaic.Lib.Pipeline.Value

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The hidden features: the rectified scaled layer of the arrays the region is entered with. -/
def hidden (c : Dev nD) : S50000x128.Idx → EReal := fun i =>
  max (scaledLayer (N := 50000) (K := 128) (M := 128) (V c main_v22) (V c main_arg0) (V c main_v12) (V c main_arg2)
    (V c main_arg4) (V c main_arg3) (i 0) (i 1)) zero

/-- Where each window's block sits at point `t`: the three row-banded inputs move with the output's band, on the
    column axis every block index is zero, the weights' and the bias's blocks are the whole arrays, and the output's
    band index is below ten. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (1 : Fin 2) = 0 ∧ win0_6.index t (0 : Fin 2) < 10 :=
  (by decide +kernel : ∀ t : Fin grid0.N, _)

/-- Every band of the output is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- What point `t` writes back is its band of the hidden features. -/
theorem flushed_eq (c : Dev nD) (t : Fin cfg0.N) :
    (dat0 V c).flushed 6 t = ((cfg0.win 6).blk t).view.read (Elt Ideal) (hidden V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e50, e51, e61, e6b⟩ := idx_facts t
  funext j
  show k0_pay1 (iblk0 V c 0 t) (iblk0 V c 2 t) (iblk0 V c 1 t) (iblk0 V c 3 t) (iblk0 V c 5 t) (iblk0 V c 4 t) j
    = hidden V c (((cfg0.win 6).blk t).view.emb j)
  refine Body.layer1_block (V c main_v22) (V c main_arg0) (V c main_v12) (V c main_arg2) (V c main_arg4) (V c main_arg3)
    (iblk0 V c 0 t) (iblk0 V c 2 t) (iblk0 V c 1 t) (iblk0 V c 3 t) (iblk0 V c 5 t) (iblk0 V c 4 t)
    (win0_6.index t (0 : Fin 2) * 5000) ?_ ?_ ?_ ?_ ?_ ?_ j (((cfg0.win 6).blk t).view.emb j) ?_ ?_
  · intro y i h0 h1
    show V c main_v22 (((cfg0.win 0).blk t).view.emb y) = V c main_v22 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i h0 h1
    show V c main_arg0 (((cfg0.win 1).blk t).view.emb y) = V c main_arg0 i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 128 + 1 * (y 1).val = (i 1).val; omega
  · intro y i h0
    show V c main_v12 (((cfg0.win 2).blk t).view.emb y) = V c main_v12 i
    refine congrArg _ (funext fun a => Fin.ext ?_)
    match a with
    | ⟨0, _⟩ => show win0_2.index t (0 : Fin 2) * 5000 + 1 * (y 0).val = (i 0).val; omega
    | ⟨1, _⟩ =>
      show win0_2.index t (1 : Fin 2) * 1 + 1 * (y 1).val = (i 1).val
      have hy : (y 1).val < 1 := (y 1).isLt
      have hi : (i 1).val < 1 := (i 1).isLt
      omega
  · funext y
    show V c main_arg2 (((cfg0.win 3).blk t).view.emb y) = V c main_arg2 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_arg4 (((cfg0.win 5).blk t).view.emb y) = V c main_arg4 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V c main_arg3 (((cfg0.win 4).blk t).view.emb y) = V c main_arg3 y
    refine congrArg _ (funext fun a => Fin.ext ?_)
    match a with
    | ⟨0, _⟩ => show win0_4.index t (0 : Fin 1) * 128 + 1 * (y 0).val = (y 0).val; omega
  · show win0_6.index t (0 : Fin 2) * 5000 + 1 * (j 0).val = win0_6.index t (0 : Fin 2) * 5000 + (j 0).val; omega
  · show win0_6.index t (1 : Fin 2) * 128 + 1 * (j 1).val = (j 1).val; omega

/-- An index of the output is in point `t`'s band iff each coordinate is in the band's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Every index of the output lies in the band of the point its row selects. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The output array after the last point: the hidden features of the entry arrays. -/
theorem final (c : Dev nD) : (dat0 V c).arrAt 6 cfg0.N = hidden V c :=
  (dat0 V c).arrAt_eq_of_cover 6 (hidden V c) (fun t _ => flushed_eq V c t) cover

end Cert.Sage.Region0

end
-- ==== Proof.Body2.lean ====
/-
  The second kernel body's two stored values, read at an index.

  The body forms the same scaled layer as the first one, without the rectifier, over weight matrices and a bias that
  hold TWO output heads side by side (columns 0 … 63 the first head, 64 … 127 the second), and stores the two halves
  of the 128 columns into two outputs. Column `q` of a head is column `o + q` of the wide result (`o = 0` or `64`),
  and the wide weights at column `o + q` are the head's own weights at column `q`, so each output block is the scaled
  layer of that head's own weights.
-/
import proofs.«133211_j7421703487977_2_alg».proof.Proof.Gen.KernelIdeal.Skeleton
import proofs.«133211_j7421703487977_2_alg».proof.Proof.LibIndex
import proofs.«133211_j7421703487977_2_alg».proof.Proof.Spec
import proofs.«133211_j7421703487977_2_alg».proof.Proof.Body1
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Idealize.ShloMosaic Idealize.ShloMosaic.ValueIdx Cert.KernelIdeal Cert.KernelIdeal.Gen Cert.LayoutLib

/-- The wide value both stores are cut from, at row `p` and wide column `r`. -/
theorem pay_layer2 (a : Vec Ideal S5000x128 .f32) (s : Vec Ideal S5000x1 .f32) (x : Vec Ideal S5000x128 .f32)
    (wl wr : Vec Ideal S128x128 .f32) (b : Vec Ideal S128 .f32) (p : Fin 5000) (r : Fin 128) :
    k1_pay1 a s x wl wr b (ix2 p r) = scaledLayer (N := 5000) (K := 128) (M := 128) a x s wl wr b p r := by
  unfold k1_pay1
  rw [addf_apply, addf_apply, matmul_at, matmul_at, broadcastTo_1b_ab_apply, shapeCast_a_1a_apply]
  unfold scaledLayer
  simp only [truncf_apply, mulf_apply, shapeCast_self, broadcastTo_col_apply]

/-- The first store is the wide value's columns `0 … 63`. -/
theorem pay_head0 (a : Vec Ideal S5000x128 .f32) (s : Vec Ideal S5000x1 .f32) (x : Vec Ideal S5000x128 .f32)
    (wl wr : Vec Ideal S128x128 .f32) (b : Vec Ideal S128 .f32) (p : Fin 5000) (q : Fin 64) :
    k1_pay2 a s x wl wr b (ix2 p q) = k1_pay1 a s x wl wr b (ix2 p ⟨0 + q.val, by omega⟩) := by
  unfold k1_pay2
  exact slice2_axis1_eq 0 _ slices_S5000x128_o0_0_S5000x64 p q

/-- The second store is the wide value's columns `64 … 127`. -/
theorem pay_head1 (a : Vec Ideal S5000x128 .f32) (s : Vec Ideal S5000x1 .f32) (x : Vec Ideal S5000x128 .f32)
    (wl wr : Vec Ideal S128x128 .f32) (b : Vec Ideal S128 .f32) (p : Fin 5000) (q : Fin 64) :
    k1_pay3 a s x wl wr b (ix2 p q) = k1_pay1 a s x wl wr b (ix2 p ⟨64 + q.val, by omega⟩) := by
  unfold k1_pay3
  exact slice2_axis1_eq 64 _ slices_S5000x128_o0_64_S5000x64 p q

/-- The wide value at row `p`, wide column `r = o + q`, for blocks that are rows `base …` of whole arrays `A`, `X`,
    `S` and wide weights that hold a head's own weights `Wl`, `Wr`, `B` at column offset `o`: the scaled layer of the
    whole arrays and the head's own weights, at row `base + p` and column `q`. -/
theorem layer2_wide (o : ℕ) (A X : S50000x128.Idx → EReal) (S : S50000x1.Idx → EReal) (Wl Wr : S128x64.Idx → EReal)
    (B : S64.Idx → EReal)
    (a : Vec Ideal S5000x128 .f32) (s : Vec Ideal S5000x1 .f32) (x : Vec Ideal S5000x128 .f32)
    (wl wr : Vec Ideal S128x128 .f32) (b : Vec Ideal S128 .f32) (base : ℕ)
    (ha : ∀ (y : S5000x128.Idx) (i : S50000x128.Idx), (i 0).val = base + (y 0).val → (i 1).val = (y 1).val → a y = A i)
    (hx : ∀ (y : S5000x128.Idx) (i : S50000x128.Idx), (i 0).val = base + (y 0).val → (i 1).val = (y 1).val → x y = X i)
    (hs : ∀ (y : S5000x1.Idx) (i : S50000x1.Idx), (i 0).val = base + (y 0).val → s y = S i)
    (hwl : ∀ (k : Fin 128) (q : Fin 64) (r : Fin 128), r.val = o + q.val → wl (ix2 k r) = Wl (ix2 k q))
    (hwr : ∀ (k : Fin 128) (q : Fin 64) (r : Fin 128), r.val = o + q.val → wr (ix2 k r) = Wr (ix2 k q))
    (hb : ∀ (q : Fin 64) (r : Fin 128), r.val = o + q.val → b (ix1 r) = B (ix1 q))
    (p : Fin 5000) (q : Fin 64) (r : Fin 128) (hr : r.val = o + q.val) (n : Fin 50000) (hn : n.val = base + p.val) :
    k1_pay1 a s x wl wr b (ix2 p r) = scaledLayer (N := 50000) (K := 128) (M := 64) A X S Wl Wr B n q := by
  rw [pay_layer2]
  unfold scaledLayer
  have eA : ∀ k : Fin 128, a (ix2 p k) = A (ix2 n k) := fun k => ha (ix2 p k) (ix2 n k) hn rfl
  have eX : ∀ k : Fin 128, x (ix2 p k) = X (ix2 n k) := fun k => hx (ix2 p k) (ix2 n k) hn rfl
  have eS : s (ix2 p (0 : Fin 1)) = S (ix2 n (0 : Fin 1)) := hs (ix2 p (0 : Fin 1)) (ix2 n (0 : Fin 1)) hn
  have eWl : ∀ k : Fin 128, wl (ix2 k r) = Wl (ix2 k q) := fun k => hwl k q r hr
  have eWr : ∀ k : Fin 128, wr (ix2 k r) = Wr (ix2 k q) := fun k => hwr k q r hr
  have eB : b (ix1 r) = B (ix1 q) := hb q r hr
  simp only [eA, eX, eS, eWl, eWr, eB]

/-- What the first store leaves at `y`, as the first head's scaled layer of the whole arrays at `i`
    (`i₀ = base + y₀`, `i₁ = y₁`). -/
theorem head0_block (A X : S50000x128.Idx → EReal) (S : S50000x1.Idx → EReal) (Wl Wr : S128x64.Idx → EReal)
    (B : S64.Idx → EReal)
    (a : Vec Ideal S5000x128 .f32) (s : Vec Ideal S5000x1 .f32) (x : Vec Ideal S5000x128 .f32)
    (wl wr : Vec Ideal S128x128 .f32) (b : Vec Ideal S128 .f32) (base : ℕ)
    (ha : ∀ (y : S5000x128.Idx) (i : S50000x128.Idx), (i 0).val = base + (y 0).val → (i 1).val = (y 1).val → a y = A i)
    (hx : ∀ (y : S5000x128.Idx) (i : S50000x128.Idx), (i 0).val = base + (y 0).val → (i 1).val = (y 1).val → x y = X i)
    (hs : ∀ (y : S5000x1.Idx) (i : S50000x1.Idx), (i 0).val = base + (y 0).val → s y = S i)
    (hwl : ∀ (k : Fin 128) (q : Fin 64) (r : Fin 128), r.val = 0 + q.val → wl (ix2 k r) = Wl (ix2 k q))
    (hwr : ∀ (k : Fin 128) (q : Fin 64) (r : Fin 128), r.val = 0 + q.val → wr (ix2 k r) = Wr (ix2 k q))
    (hb : ∀ (q : Fin 64) (r : Fin 128), r.val = 0 + q.val → b (ix1 r) = B (ix1 q))
    (y : S5000x64.Idx) (i : S50000x64.Idx) (hi0 : (i 0).val = base + (y 0).val) (hi1 : (i 1).val = (y 1).val) :
    k1_pay2 a s x wl wr b y = scaledLayer (N := 50000) (K := 128) (M := 64) A X S Wl Wr B (i 0) (i 1) := by
  obtain ⟨p, q, rfl⟩ : ∃ (p : Fin 5000) (q : Fin 64), y = ix2 p q := ⟨y 0, y 1, eq_ix2 y⟩
  obtain ⟨n, q', rfl⟩ : ∃ (n : Fin 50000) (q' : Fin 64), i = ix2 n q' := ⟨i 0, i 1, eq_ix2 i⟩
  obtain rfl : q' = q := Fin.ext hi1
  rw [pay_head0]
  exact layer2_wide 0 A X S Wl Wr B a s x wl wr b base ha hx hs hwl hwr hb p q' _ rfl n hi0

/-- What the second store leaves at `y`, as the second head's scaled layer of the whole arrays at `i`. -/
theorem head1_block (A X : S50000x128.Idx → EReal) (S : S50000x1.Idx → EReal) (Wl Wr : S128x64.Idx → EReal)
    (B : S64.Idx → EReal)
    (a : Vec Ideal S5000x128 .f32) (s : Vec Ideal S5000x1 .f32) (x : Vec Ideal S5000x128 .f32)
    (wl wr : Vec Ideal S128x128 .f32) (b : Vec Ideal S128 .f32) (base : ℕ)
    (ha : ∀ (y : S5000x128.Idx) (i : S50000x128.Idx), (i 0).val = base + (y 0).val → (i 1).val = (y 1).val → a y = A i)
    (hx : ∀ (y : S5000x128.Idx) (i : S50000x128.Idx), (i 0).val = base + (y 0).val → (i 1).val = (y 1).val → x y = X i)
    (hs : ∀ (y : S5000x1.Idx) (i : S50000x1.Idx), (i 0).val = base + (y 0).val → s y = S i)
    (hwl : ∀ (k : Fin 128) (q : Fin 64) (r : Fin 128), r.val = 64 + q.val → wl (ix2 k r) = Wl (ix2 k q))
    (hwr : ∀ (k : Fin 128) (q : Fin 64) (r : Fin 128), r.val = 64 + q.val → wr (ix2 k r) = Wr (ix2 k q))
    (hb : ∀ (q : Fin 64) (r : Fin 128), r.val = 64 + q.val → b (ix1 r) = B (ix1 q))
    (y : S5000x64.Idx) (i : S50000x64.Idx) (hi0 : (i 0).val = base + (y 0).val) (hi1 : (i 1).val = (y 1).val) :
    k1_pay3 a s x wl wr b y = scaledLayer (N := 50000) (K := 128) (M := 64) A X S Wl Wr B (i 0) (i 1) := by
  obtain ⟨p, q, rfl⟩ : ∃ (p : Fin 5000) (q : Fin 64), y = ix2 p q := ⟨y 0, y 1, eq_ix2 y⟩
  obtain ⟨n, q', rfl⟩ : ∃ (n : Fin 50000) (q' : Fin 64), i = ix2 n q' := ⟨i 0, i 1, eq_ix2 i⟩
  obtain rfl : q' = q := Fin.ext hi1
  rw [pay_head1]
  exact layer2_wide 64 A X S Wl Wr B a s x wl wr b base ha hx hs hwl hwr hb p q' _ rfl n hi0

end Cert.Sage.Body

end
-- ==== Proof.Region1.lean ====
/-
  What the second grid leaves in its two output arrays, for ANY contents `V` the region is entered with.

  As in the first grid, point `t` reads rows `5000 t … 5000 t + 4999` of the neighbour sums, of the hidden features and
  of the factor column, and the whole of the wide weights and bias; it writes the same rows of BOTH outputs, the first
  from the wide result's columns 0 … 63, the second from its columns 64 … 127. After the last point each output array
  is the scaled layer of the whole entry arrays with that head's own columns of the wide weights.
-/
import proofs.«133211_j7421703487977_2_alg».proof.Proof.Gen.KernelIdeal.Frame
import proofs.«133211_j7421703487977_2_alg».proof.Proof.Spec
import proofs.«133211_j7421703487977_2_alg».proof.Proof.Heads
import proofs.«133211_j7421703487977_2_alg».proof.Proof.Body2
import Idealize.ShloMosaic.Lib.ValueIdx
import Idealize.ShloMosaic.Lib.Pipeline.Value

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The head that starts at column `o` of the wide weights: the scaled layer of the arrays the region is entered
    with. -/
def head (o : ℕ) (ho : o + 64 ≤ 128) (c : Dev nD) : S50000x64.Idx → EReal := fun i =>
  scaledLayer (N := 50000) (K := 128) (M := 64) (V c main_v33) (V c main_v23) (V c main_v12)
    (colsAt o ho (V c main_v34)) (colsAt o ho (V c main_v35)) (entriesAt o ho (V c main_v36)) (i 0) (i 1)

/-- Where each window's block sits at point `t` (as in the first grid; both outputs share one band). -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (1 : Fin 2) = 0 ∧ win1_6.index t (0 : Fin 2) < 10
    ∧ win1_7.index t (0 : Fin 2) = win1_6.index t (0 : Fin 2) ∧ win1_7.index t (1 : Fin 2) = 0 :=
  (by decide +kernel : ∀ t : Fin grid1.N, _)

/-- Every band of either output is some point's. -/
theorem idx_onto : ∀ q0 : Fin 10, ∃ t : Fin cfg1.N, win1_6.index t = ![q0.val, 0] ∧ win1_7.index t = ![q0.val, 0] :=
  (by decide +kernel : ∀ q0 : Fin 10, ∃ t : Fin grid1.N, win1_6.index t = ![q0.val, 0] ∧ win1_7.index t = ![q0.val, 0])

section Blocks

variable (c : Dev nD) (t : Fin cfg1.N)

/-- The neighbour-sum block is rows `base …` of its array. -/
theorem blk_agg (base : ℕ) (e0 : win1_0.index t (0 : Fin 2) * 5000 = base) (e1 : win1_0.index t (1 : Fin 2) = 0)
    (y : S5000x128.Idx) (i : S50000x128.Idx) (h0 : (i 0).val = base + (y 0).val) (h1 : (i 1).val = (y 1).val) :
    iblk1 V c 0 t y = V c main_v33 i := by
  show V c main_v33 (((cfg1.win 0).blk t).view.emb y) = V c main_v33 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The hidden-feature block is rows `base …` of its array. -/
theorem blk_hid (base : ℕ) (e0 : win1_1.index t (0 : Fin 2) * 5000 = base) (e1 : win1_1.index t (1 : Fin 2) = 0)
    (y : S5000x128.Idx) (i : S50000x128.Idx) (h0 : (i 0).val = base + (y 0).val) (h1 : (i 1).val = (y 1).val) :
    iblk1 V c 1 t y = V c main_v23 i := by
  show V c main_v23 (((cfg1.win 1).blk t).view.emb y) = V c main_v23 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The factor block is rows `base …` of the factor column. -/
theorem blk_fac (base : ℕ) (e0 : win1_2.index t (0 : Fin 2) * 5000 = base) (e1 : win1_2.index t (1 : Fin 2) = 0)
    (y : S5000x1.Idx) (i : S50000x1.Idx) (h0 : (i 0).val = base + (y 0).val) :
    iblk1 V c 2 t y = V c main_v12 i := by
  show V c main_v12 (((cfg1.win 2).blk t).view.emb y) = V c main_v12 i
  refine congrArg _ (funext fun a => Fin.ext ?_)
  match a with
  | ⟨0, _⟩ => show win1_2.index t (0 : Fin 2) * 5000 + 1 * (y 0).val = (i 0).val; omega
  | ⟨1, _⟩ =>
    show win1_2.index t (1 : Fin 2) * 1 + 1 * (y 1).val = (i 1).val
    have hy : (y 1).val < 1 := (y 1).isLt
    have hi : (i 1).val < 1 := (i 1).isLt
    omega

/-- The wide left weights' block is the whole matrix: its column `r = o + q` is column `q` of the head at `o`. -/
theorem blk_wl (o : ℕ) (ho : o + 64 ≤ 128) (e0 : win1_3.index t (0 : Fin 2) = 0) (e1 : win1_3.index t (1 : Fin 2) = 0)
    (k : Fin 128) (q : Fin 64) (r : Fin 128) (hr : r.val = o + q.val) :
    iblk1 V c 3 t (ix2 k r) = colsAt o ho (V c main_v34) (ix2 k q) := by
  show V c main_v34 (((cfg1.win 3).blk t).view.emb (ix2 k r)) = V c main_v34 (ix2 k ⟨o + q.val, head_col_lt o ho q⟩)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * r.val = o + q.val; omega

/-- The wide right weights' block likewise. -/
theorem blk_wr (o : ℕ) (ho : o + 64 ≤ 128) (e0 : win1_5.index t (0 : Fin 2) = 0) (e1 : win1_5.index t (1 : Fin 2) = 0)
    (k : Fin 128) (q : Fin 64) (r : Fin 128) (hr : r.val = o + q.val) :
    iblk1 V c 5 t (ix2 k r) = colsAt o ho (V c main_v35) (ix2 k q) := by
  show V c main_v35 (((cfg1.win 5).blk t).view.emb (ix2 k r)) = V c main_v35 (ix2 k ⟨o + q.val, head_col_lt o ho q⟩)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * r.val = o + q.val; omega

/-- The wide bias's block is the whole vector: its entry `r = o + q` is entry `q` of the head at `o`. -/
theorem blk_b (o : ℕ) (ho : o + 64 ≤ 128) (e0 : win1_4.index t (0 : Fin 1) = 0)
    (q : Fin 64) (r : Fin 128) (hr : r.val = o + q.val) :
    iblk1 V c 4 t (ix1 r) = entriesAt o ho (V c main_v36) (ix1 q) := by
  show V c main_v36 (((cfg1.win 4).blk t).view.emb (ix1 r)) = V c main_v36 (ix1 ⟨o + q.val, head_col_lt o ho q⟩)
  refine congrArg _ (funext fun a => Fin.ext ?_)
  match a with
  | ⟨0, _⟩ => show win1_4.index t (0 : Fin 1) * 128 + 1 * r.val = o + q.val; omega

end Blocks

/-- What point `t` writes back to the first output is its band of the head at column 0. -/
theorem flushed6_eq (c : Dev nD) (t : Fin cfg1.N) :
    (dat1 V c).flushed 6 t = ((cfg1.win 6).blk t).view.read (Elt Ideal) (head V 0 (by omega) c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e50, e51, e61, e6b, e70, e71⟩ := idx_facts t
  funext j
  show k1_pay2 (iblk1 V c 0 t) (iblk1 V c 2 t) (iblk1 V c 1 t) (iblk1 V c 3 t) (iblk1 V c 5 t) (iblk1 V c 4 t) j
    = head V 0 (by omega) c (((cfg1.win 6).blk t).view.emb j)
  refine Body.head0_block (V c main_v33) (V c main_v23) (V c main_v12) (colsAt 0 (by omega) (V c main_v34))
    (colsAt 0 (by omega) (V c main_v35)) (entriesAt 0 (by omega) (V c main_v36))
    (iblk1 V c 0 t) (iblk1 V c 2 t) (iblk1 V c 1 t) (iblk1 V c 3 t) (iblk1 V c 5 t) (iblk1 V c 4 t)
    (win1_6.index t (0 : Fin 2) * 5000)
    (blk_agg V c t _ (by omega) e01) (blk_hid V c t _ (by omega) e11) (blk_fac V c t _ (by omega) e21)
    (blk_wl V c t 0 (by omega) e30 e31) (blk_wr V c t 0 (by omega) e50 e51) (blk_b V c t 0 (by omega) e40)
    j (((cfg1.win 6).blk t).view.emb j) ?_ ?_
  · show win1_6.index t (0 : Fin 2) * 5000 + 1 * (j 0).val = win1_6.index t (0 : Fin 2) * 5000 + (j 0).val; omega
  · show win1_6.index t (1 : Fin 2) * 64 + 1 * (j 1).val = (j 1).val; omega

/-- What point `t` writes back to the second output is its band of the head at column 64. -/
theorem flushed7_eq (c : Dev nD) (t : Fin cfg1.N) :
    (dat1 V c).flushed 7 t = ((cfg1.win 7).blk t).view.read (Elt Ideal) (head V 64 (by omega) c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e50, e51, e61, e6b, e70, e71⟩ := idx_facts t
  funext j
  show k1_pay3 (iblk1 V c 0 t) (iblk1 V c 2 t) (iblk1 V c 1 t) (iblk1 V c 3 t) (iblk1 V c 5 t) (iblk1 V c 4 t) j
    = head V 64 (by omega) c (((cfg1.win 7).blk t).view.emb j)
  refine Body.head1_block (V c main_v33) (V c main_v23) (V c main_v12) (colsAt 64 (by omega) (V c main_v34))
    (colsAt 64 (by omega) (V c main_v35)) (entriesAt 64 (by omega) (V c main_v36))
    (iblk1 V c 0 t) (iblk1 V c 2 t) (iblk1 V c 1 t) (iblk1 V c 3 t) (iblk1 V c 5 t) (iblk1 V c 4 t)
    (win1_7.index t (0 : Fin 2) * 5000)
    (blk_agg V c t _ (by omega) e01) (blk_hid V c t _ (by omega) e11) (blk_fac V c t _ (by omega) e21)
    (blk_wl V c t 64 (by omega) e30 e31) (blk_wr V c t 64 (by omega) e50 e51) (blk_b V c t 64 (by omega) e40)
    j (((cfg1.win 7).blk t).view.emb j) ?_ ?_
  · show win1_7.index t (0 : Fin 2) * 5000 + 1 * (j 0).val = win1_7.index t (0 : Fin 2) * 5000 + (j 0).val; omega
  · show win1_7.index t (1 : Fin 2) * 64 + 1 * (j 1).val = (j 1).val; omega

/-- An index of the first output is in point `t`'s band iff each coordinate is in the band's range on its axis. -/
theorem mem_blk6 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v37_0).slice (win1_6.rect t)).set ↔ _
  rw [View.set_slice_whole, Rect.mem_set_unit]
  exact Iff.rfl

/-- The same for the second output. -/
theorem mem_blk7 (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v37_1).slice (win1_7.rect t)).set ↔ _
  rw [View.set_slice_whole, Rect.mem_set_unit]
  exact Iff.rfl

/-- Every index of the first output lies in the band of the point its row selects. -/
theorem cover6 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht, -⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- The same for the second output. -/
theorem cover7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, -, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk7]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 64 ≤ (i 1).val ∧ (i 1).val < win1_7.index t (1 : Fin 2) * 64 + 64
    omega

/-- The first output array after the last point. -/
theorem final6 (c : Dev nD) : (dat1 V c).arrAt 6 cfg1.N = head V 0 (by omega) c :=
  (dat1 V c).arrAt_eq_of_cover 6 (head V 0 (by omega) c) (fun t _ => flushed6_eq V c t) cover6

/-- The second output array after the last point. -/
theorem final7 (c : Dev nD) : (dat1 V c).arrAt 7 cfg1.N = head V 64 (by omega) c :=
  (dat1 V c).arrAt_eq_of_cover 7 (head V 64 (by omega) c) (fun t _ => flushed7_eq V c t) cover7

end Cert.Sage.Region1

end
-- ==== Proof.HostA.lean ====
/-
  The host operations before the first grid, read buffer by buffer.

  Starting from ANY buffer contents `W`, the stretch computes from the edge list (argument 1) the source and
  destination node of every edge, the number of edges into every node, the reciprocal of that number clamped below by
  one as a column, and the sum over the edges into a node of the source node's feature row. It writes no argument.
  Each of these is the same term the reference program computes, so they are stated with the reference's own stage
  functions: the destination and source vectors, the count, and the neighbour sum of a feature array.
-/
import proofs.«133211_j7421703487977_2_alg».proof.Proof.Gen.KernelIdeal.Launch
import proofs.«133211_j7421703487977_2_alg».proof.Proof.Gen.ReferenceIdeal.Read
import proofs.«133211_j7421703487977_2_alg».proof.Proof.LibIndex
import proofs.«133211_j7421703487977_2_alg».proof.Proof.Spec
import Idealize.ShloMosaic.Lib.StableHlo.Run
import Idealize.ShloMosaic.Lib.ValueIdx

noncomputable section

namespace Cert.Sage.Host

open Idealize.ShloMosaic Idealize.ShloMosaic.TcCoe Idealize.SL.Sem Idealize.ShloMosaic.StableHlo
open Idealize.ShloMosaic.ValueIdx
open Cert.KernelIdeal Cert.KernelIdeal.Gen

/-- The per-node factor column from the per-node edge counts: `1 / max (cnt p) 1` at row `p`. -/
def invCol (cnt : (⟨S50000, .f32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32))
      (maximumf cnt (broadcastInDim S50000 ![] bcast_S_S50000 (constant (F := Ideal) S_ .f32 0x3F800000#32))))

/-- The factor at row `p`. -/
theorem invCol_apply (cnt : (⟨S50000, .f32⟩ : BufTy).Contents (Elt Ideal)) (p : Fin 50000) :
    invCol cnt (ix2 p (0 : Fin 1)) = Ideal.div one (max (cnt (ix1 p)) one) := by
  unfold invCol
  rw [Cert.LayoutLib.broadcastInDim_vecCol_apply]
  show Ideal.div (broadcastInDim S50000 ![] bcast_S_S50000 (constant (F := Ideal) S_ .f32 0x3F800000#32) (ix1 p))
    (max (cnt (ix1 p)) (broadcastInDim S50000 ![] bcast_S_S50000 (constant (F := Ideal) S_ .f32 0x3F800000#32) (ix1 p))) = _
  rw [Cert.LayoutLib.broadcastInDim_scalar_apply]
  rfl

set_option maxHeartbeats 4000000 in
/-- The neighbour sums of the node features. -/
theorem pre_v22 (W : Valuation τ sig (Elt Ideal)) :
    StableHlo.after (hostOps0 (F := Ideal)) W (Proc.devRef .tc main_v22)
      = Cert.ReferenceIdeal.Read.val_main_v13 (F := Ideal) (W (Proc.devRef .tc main_arg0)) (W (Proc.devRef .tc main_arg1)) := by
  after_results_simp
  rfl

set_option maxHeartbeats 4000000 in
/-- The factor column. -/
theorem pre_v12 (W : Valuation τ sig (Elt Ideal)) :
    StableHlo.after (hostOps0 (F := Ideal)) W (Proc.devRef .tc main_v12)
      = invCol (Cert.ReferenceIdeal.Read.val_main_v17 (F := Ideal) (W (Proc.devRef .tc main_arg1))) := by
  after_results_simp
  rfl

set_option maxHeartbeats 4000000 in
/-- The edges' source nodes. -/
theorem pre_v1 (W : Valuation τ sig (Elt Ideal)) :
    StableHlo.after (hostOps0 (F := Ideal)) W (Proc.devRef .tc main_v1)
      = Cert.ReferenceIdeal.Read.val_main_v1 (F := Ideal) (W (Proc.devRef .tc main_arg1)) := by
  after_results_simp
  rfl

set_option maxHeartbeats 4000000 in
/-- The edges' destination nodes. -/
theorem pre_v3 (W : Valuation τ sig (Elt Ideal)) :
    StableHlo.after (hostOps0 (F := Ideal)) W (Proc.devRef .tc main_v3)
      = Cert.ReferenceIdeal.Read.val_main_v3 (F := Ideal) (W (Proc.devRef .tc main_arg1)) := by
  after_results_simp
  rfl

/-! The stretch leaves the arguments as it found them. -/

set_option maxHeartbeats 4000000 in
theorem pre_arg0 (W : Valuation τ sig (Elt Ideal)) :
    StableHlo.after (hostOps0 (F := Ideal)) W (Proc.devRef .tc main_arg0) = W (Proc.devRef .tc main_arg0) := by
  after_results_simp

set_option maxHeartbeats 4000000 in
theorem pre_arg2 (W : Valuation τ sig (Elt Ideal)) :
    StableHlo.after (hostOps0 (F := Ideal)) W (Proc.devRef .tc main_arg2) = W (Proc.devRef .tc main_arg2) := by
  after_results_simp

set_option maxHeartbeats 4000000 in
theorem pre_arg3 (W : Valuation τ sig (Elt Ideal)) :
    StableHlo.after (hostOps0 (F := Ideal)) W (Proc.devRef .tc main_arg3) = W (Proc.devRef .tc main_arg3) := by
  after_results_simp

set_option maxHeartbeats 4000000 in
theorem pre_arg4 (W : Valuation τ sig (Elt Ideal)) :
    StableHlo.after (hostOps0 (F := Ideal)) W (Proc.devRef .tc main_arg4) = W (Proc.devRef .tc main_arg4) := by
  after_results_simp

set_option maxHeartbeats 4000000 in
theorem pre_arg5 (W : Valuation τ sig (Elt Ideal)) :
    StableHlo.after (hostOps0 (F := Ideal)) W (Proc.devRef .tc main_arg5) = W (Proc.devRef .tc main_arg5) := by
  after_results_simp

set_option maxHeartbeats 4000000 in
theorem pre_arg6 (W : Valuation τ sig (Elt Ideal)) :
    StableHlo.after (hostOps0 (F := Ideal)) W (Proc.devRef .tc main_arg6) = W (Proc.devRef .tc main_arg6) := by
  after_results_simp

set_option maxHeartbeats 4000000 in
theorem pre_arg7 (W : Valuation τ sig (Elt Ideal)) :
    StableHlo.after (hostOps0 (F := Ideal)) W (Proc.devRef .tc main_arg7) = W (Proc.devRef .tc main_arg7) := by
  after_results_simp

set_option maxHeartbeats 4000000 in
theorem pre_arg8 (W : Valuation τ sig (Elt Ideal)) :
    StableHlo.after (hostOps0 (F := Ideal)) W (Proc.devRef .tc main_arg8) = W (Proc.devRef .tc main_arg8) := by
  after_results_simp

set_option maxHeartbeats 4000000 in
theorem pre_arg9 (W : Valuation τ sig (Elt Ideal)) :
    StableHlo.after (hostOps0 (F := Ideal)) W (Proc.devRef .tc main_arg9) = W (Proc.devRef .tc main_arg9) := by
  after_results_simp

set_option maxHeartbeats 4000000 in
theorem pre_arg10 (W : Valuation τ sig (Elt Ideal)) :
    StableHlo.after (hostOps0 (F := Ideal)) W (Proc.devRef .tc main_arg10) = W (Proc.devRef .tc main_arg10) := by
  after_results_simp

end Cert.Sage.Host

end
-- ==== Proof.HostB.lean ====
/-
  The host operations between the two grids, read buffer by buffer.

  Starting from ANY buffer contents `W`, the stretch sums, over the edges into a node, the source node's row of the
  hidden features (the first grid's output), and lays the two output heads' weight matrices side by side and their
  biases end to end. It writes neither the hidden features nor the factor column.
-/
import proofs.«133211_j7421703487977_2_alg».proof.Proof.Gen.KernelIdeal.Launch
import proofs.«133211_j7421703487977_2_alg».proof.Proof.Gen.ReferenceIdeal.Read
import Idealize.ShloMosaic.Lib.StableHlo.Run

noncomputable section

namespace Cert.Sage.Host

open Idealize.ShloMosaic Idealize.ShloMosaic.TcCoe Idealize.SL.Sem Idealize.ShloMosaic.StableHlo
open Cert.KernelIdeal Cert.KernelIdeal.Gen

/-- The sum, over the edges into each node, of the source node's row of `X`; a negative source index counts from
    the end, as the gather reads it. `src` and `dst` are the edges' endpoints. -/
def aggOf (X : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 X
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- With the endpoints read off the edge list, this is the reference's neighbour sum. -/
theorem aggOf_eq (X : (⟨S50000x128, .f32⟩ : BufTy).Contents (Elt Ideal)) (ei : (⟨S2x800000, .i32⟩ : BufTy).Contents (Elt Ideal)) :
    aggOf X (Cert.ReferenceIdeal.Read.val_main_v1 (F := Ideal) ei) (Cert.ReferenceIdeal.Read.val_main_v3 (F := Ideal) ei)
      = Cert.ReferenceIdeal.Read.val_main_v13 (F := Ideal) X ei := rfl

set_option maxHeartbeats 4000000 in
/-- The neighbour sums of the hidden features. -/
theorem mid_v33 (W : Valuation τ sig (Elt Ideal)) :
    StableHlo.after (hostOps1 (F := Ideal)) W (Proc.devRef .tc main_v33)
      = aggOf (W (Proc.devRef .tc main_v23)) (W (Proc.devRef .tc main_v1)) (W (Proc.devRef .tc main_v3)) := by
  after_results_simp
  rfl

set_option maxHeartbeats 4000000 in
/-- The hidden features are left as found. -/
theorem mid_v23 (W : Valuation τ sig (Elt Ideal)) :
    StableHlo.after (hostOps1 (F := Ideal)) W (Proc.devRef .tc main_v23) = W (Proc.devRef .tc main_v23) := by
  after_results_simp

set_option maxHeartbeats 4000000 in
/-- The factor column is left as found. -/
theorem mid_v12 (W : Valuation τ sig (Elt Ideal)) :
    StableHlo.after (hostOps1 (F := Ideal)) W (Proc.devRef .tc main_v12) = W (Proc.devRef .tc main_v12) := by
  after_results_simp

set_option maxHeartbeats 4000000 in
/-- The two heads' left weights, side by side. -/
theorem mid_v34 (W : Valuation τ sig (Elt Ideal)) :
    StableHlo.after (hostOps1 (F := Ideal)) W (Proc.devRef .tc main_v34)
      = concatenate S128x128 1 [⟨S128x64, W (Proc.devRef .tc main_arg5)⟩, ⟨S128x64, W (Proc.devRef .tc main_arg8)⟩]
          concatenates_S128x64_S128x64_S128x128_d1 := by
  after_results_simp
  rfl

set_option maxHeartbeats 4000000 in
/-- The two heads' right weights, side by side. -/
theorem mid_v35 (W : Valuation τ sig (Elt Ideal)) :
    StableHlo.after (hostOps1 (F := Ideal)) W (Proc.devRef .tc main_v35)
      = concatenate S128x128 1 [⟨S128x64, W (Proc.devRef .tc main_arg7)⟩, ⟨S128x64, W (Proc.devRef .tc main_arg10)⟩]
          concatenates_S128x64_S128x64_S128x128_d1 := by
  after_results_simp
  rfl

set_option maxHeartbeats 4000000 in
/-- The two heads' biases, end to end. -/
theorem mid_v36 (W : Valuation τ sig (Elt Ideal)) :
    StableHlo.after (hostOps1 (F := Ideal)) W (Proc.devRef .tc main_v36)
      = concatenate S128 0 [⟨S64, W (Proc.devRef .tc main_arg6)⟩, ⟨S64, W (Proc.devRef .tc main_arg9)⟩]
          concatenates_S64_S64_S128_d0 := by
  after_results_simp
  rfl

end Cert.Sage.Host

end
-- ==== Proof.KernelValue.lean ====
/-
  The contents of the idealized kernel program's two result buffers at the end of the run, as functions of the
  arguments.

  Following the buffers through @main: the first stretch of host operations leaves the neighbour sums of the node
  features and the factor column `1 / max cnt 1`; the first grid turns them into the hidden features (the scaled
  layer, which with that factor IS the layer); the second stretch sums the hidden features over the edges and lays
  the two heads' weights side by side; the second grid writes, for each head, the scaled layer of the hidden features
  with that head's own columns — again the layer.
-/
import proofs.«133211_j7421703487977_2_alg».proof.Proof.Gen.KernelIdeal.Frame
import proofs.«133211_j7421703487977_2_alg».proof.Proof.Gen.ReferenceIdeal.Read
import proofs.«133211_j7421703487977_2_alg».proof.Proof.LibIndex
import proofs.«133211_j7421703487977_2_alg».proof.Proof.Spec
import proofs.«133211_j7421703487977_2_alg».proof.Proof.Heads
import proofs.«133211_j7421703487977_2_alg».proof.Proof.Result
import proofs.«133211_j7421703487977_2_alg».proof.Proof.Region0
import proofs.«133211_j7421703487977_2_alg».proof.Proof.Region1
import proofs.«133211_j7421703487977_2_alg».proof.Proof.HostA
import proofs.«133211_j7421703487977_2_alg».proof.Proof.HostB
import Idealize.ShloMosaic.Lib.ValueIdx

noncomputable section

namespace Cert.Sage.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Sage.Host
open Cert.ReferenceIdeal.Read (val_main_v1 val_main_v3 val_main_v13 val_main_v17)

variable (m : (ℓ : Loc nD τ sig) → Buf (Elt Ideal) ℓ) (ρ : Dev nD → PrngReg) (c : Dev nD)

/-! ## What the first grid is entered with -/

theorem V1_v22 : V1 m ρ c main_v22 = val_main_v13 (F := Ideal) (m ((c : Thread nD τ).loc main_arg0)) (m ((c : Thread nD τ).loc main_arg1)) := pre_v22 (W0 m ρ c)
theorem V1_v12 : V1 m ρ c main_v12 = invCol (val_main_v17 (F := Ideal) (m ((c : Thread nD τ).loc main_arg1))) := pre_v12 (W0 m ρ c)
theorem V1_arg0 : V1 m ρ c main_arg0 = (m ((c : Thread nD τ).loc main_arg0)) := pre_arg0 (W0 m ρ c)
theorem V1_arg2 : V1 m ρ c main_arg2 = (m ((c : Thread nD τ).loc main_arg2)) := pre_arg2 (W0 m ρ c)
theorem V1_arg3 : V1 m ρ c main_arg3 = (m ((c : Thread nD τ).loc main_arg3)) := pre_arg3 (W0 m ρ c)
theorem V1_arg4 : V1 m ρ c main_arg4 = (m ((c : Thread nD τ).loc main_arg4)) := pre_arg4 (W0 m ρ c)

/-- The first grid's output is the hidden features. -/
theorem hidden_eq : Region0.hidden (V1 m ρ) c = (Result.hid (m ((c : Thread nD τ).loc main_arg0)) (m ((c : Thread nD τ).loc main_arg1)) (m ((c : Thread nD τ).loc main_arg2)) (m ((c : Thread nD τ).loc main_arg3)) (m ((c : Thread nD τ).loc main_arg4))) := by
  funext i
  obtain ⟨n, j, rfl⟩ : ∃ (n : Fin 50000) (j : Fin 128), i = ix2 n j := ⟨i 0, i 1, eq_ix2 i⟩
  simp only [Region0.hidden, Result.hid, reluLayerArr]
  rw [V1_v22, V1_arg0, V1_v12, V1_arg2, V1_arg4, V1_arg3]
  exact congrArg (max · zero) (scaledLayer_eq_layer _ _ _ (val_main_v17 (F := Ideal) (m ((c : Thread nD τ).loc main_arg1))) _ _ _ n j (invCol_apply _ n))

/-! ## What the second stretch of host operations starts from -/

theorem W2_v23 : W2 m ρ c (Proc.devRef .tc main_v23) = (Result.hid (m ((c : Thread nD τ).loc main_arg0)) (m ((c : Thread nD τ).loc main_arg1)) (m ((c : Thread nD τ).loc main_arg2)) (m ((c : Thread nD τ).loc main_arg3)) (m ((c : Thread nD τ).loc main_arg4))) :=
  (W2_arr m ρ c 6).trans ((Region0.final (V1 m ρ) c).trans (hidden_eq m ρ c))
theorem W2_v12 : W2 m ρ c (Proc.devRef .tc main_v12) = invCol (val_main_v17 (F := Ideal) (m ((c : Thread nD τ).loc main_arg1))) :=
  (W2_arr m ρ c 2).trans (((dat0 (V1 m ρ) c).arrAt_in 2 rfl _).trans ((A_eq0 (V1 m ρ) c 2).trans (V1_v12 m ρ c)))
theorem W2_v1 : W2 m ρ c (Proc.devRef .tc main_v1) = val_main_v1 (F := Ideal) (m ((c : Thread nD τ).loc main_arg1)) :=
  (W2_of_ne m ρ c main_v1 (by decide)).trans (pre_v1 (W0 m ρ c))
theorem W2_v3 : W2 m ρ c (Proc.devRef .tc main_v3) = val_main_v3 (F := Ideal) (m ((c : Thread nD τ).loc main_arg1)) :=
  (W2_of_ne m ρ c main_v3 (by decide)).trans (pre_v3 (W0 m ρ c))
theorem W2_arg5 : W2 m ρ c (Proc.devRef .tc main_arg5) = (m ((c : Thread nD τ).loc main_arg5)) :=
  (W2_of_ne m ρ c main_arg5 (by decide)).trans (pre_arg5 (W0 m ρ c))
theorem W2_arg6 : W2 m ρ c (Proc.devRef .tc main_arg6) = (m ((c : Thread nD τ).loc main_arg6)) :=
  (W2_of_ne m ρ c main_arg6 (by decide)).trans (pre_arg6 (W0 m ρ c))
theorem W2_arg7 : W2 m ρ c (Proc.devRef .tc main_arg7) = (m ((c : Thread nD τ).loc main_arg7)) :=
  (W2_of_ne m ρ c main_arg7 (by decide)).trans (pre_arg7 (W0 m ρ c))
theorem W2_arg8 : W2 m ρ c (Proc.devRef .tc main_arg8) = (m ((c : Thread nD τ).loc main_arg8)) :=
  (W2_of_ne m ρ c main_arg8 (by decide)).trans (pre_arg8 (W0 m ρ c))
theorem W2_arg9 : W2 m ρ c (Proc.devRef .tc main_arg9) = (m ((c : Thread nD τ).loc main_arg9)) :=
  (W2_of_ne m ρ c main_arg9 (by decide)).trans (pre_arg9 (W0 m ρ c))
theorem W2_arg10 : W2 m ρ c (Proc.devRef .tc main_arg10) = (m ((c : Thread nD τ).loc main_arg10)) :=
  (W2_of_ne m ρ c main_arg10 (by decide)).trans (pre_arg10 (W0 m ρ c))

/-! ## What the second grid is entered with -/

theorem V3_v33 : V3 m ρ c main_v33 = val_main_v13 (F := Ideal) (Result.hid (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  refine (mid_v33 (W2 m ρ c)).trans ?_
  rw [W2_v23, W2_v1, W2_v3]
  exact aggOf_eq _ _
theorem V3_v23 : V3 m ρ c main_v23 = (Result.hid (m ((c : Thread nD τ).loc main_arg0)) (m ((c : Thread nD τ).loc main_arg1)) (m ((c : Thread nD τ).loc main_arg2)) (m ((c : Thread nD τ).loc main_arg3)) (m ((c : Thread nD τ).loc main_arg4))) := (mid_v23 (W2 m ρ c)).trans (W2_v23 m ρ c)
theorem V3_v12 : V3 m ρ c main_v12 = invCol (val_main_v17 (F := Ideal) (m ((c : Thread nD τ).loc main_arg1))) := (mid_v12 (W2 m ρ c)).trans (W2_v12 m ρ c)
theorem V3_v34 : V3 m ρ c main_v34
    = concatenate S128x128 1 [⟨S128x64, (m ((c : Thread nD τ).loc main_arg5))⟩, ⟨S128x64, (m ((c : Thread nD τ).loc main_arg8))⟩] concatenates_S128x64_S128x64_S128x128_d1 := by
  refine (mid_v34 (W2 m ρ c)).trans ?_
  rw [W2_arg5, W2_arg8]
theorem V3_v35 : V3 m ρ c main_v35
    = concatenate S128x128 1 [⟨S128x64, (m ((c : Thread nD τ).loc main_arg7))⟩, ⟨S128x64, (m ((c : Thread nD τ).loc main_arg10))⟩] concatenates_S128x64_S128x64_S128x128_d1 := by
  refine (mid_v35 (W2 m ρ c)).trans ?_
  rw [W2_arg7, W2_arg10]
theorem V3_v36 : V3 m ρ c main_v36
    = concatenate S128 0 [⟨S64, (m ((c : Thread nD τ).loc main_arg6))⟩, ⟨S64, (m ((c : Thread nD τ).loc main_arg9))⟩] concatenates_S64_S64_S128_d0 := by
  refine (mid_v36 (W2 m ρ c)).trans ?_
  rw [W2_arg6, W2_arg9]

/-- The head at column 0 is the first result's layer. -/
theorem head0_eq : Region1.head (V3 m ρ) 0 (by omega) c
    = Result.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨n, j, rfl⟩ : ∃ (n : Fin 50000) (j : Fin 64), i = ix2 n j := ⟨i 0, i 1, eq_ix2 i⟩
  simp only [Region1.head, Result.out, layerArr]
  rw [V3_v33, V3_v23, V3_v12, V3_v34, V3_v35, V3_v36]
  rw [colsAt_concat_fst, colsAt_concat_fst, entriesAt_concat_fst]
  exact scaledLayer_eq_layer _ _ _ (val_main_v17 (F := Ideal) (m ((c : Thread nD τ).loc main_arg1))) _ _ _ n j (invCol_apply _ n)

/-- The head at column 64 is the second result's layer. -/
theorem head1_eq : Region1.head (V3 m ρ) 64 (by omega) c
    = Result.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) := by
  funext i
  obtain ⟨n, j, rfl⟩ : ∃ (n : Fin 50000) (j : Fin 64), i = ix2 n j := ⟨i 0, i 1, eq_ix2 i⟩
  simp only [Region1.head, Result.out, layerArr]
  rw [V3_v33, V3_v23, V3_v12, V3_v34, V3_v35, V3_v36]
  rw [colsAt_concat_snd, colsAt_concat_snd, entriesAt_concat_snd]
  exact scaledLayer_eq_layer _ _ _ (val_main_v17 (F := Ideal) (m ((c : Thread nD τ).loc main_arg1))) _ _ _ n j (invCol_apply _ n)

/-! ## The result buffers at the end -/

theorem W4_res0 : W4 m ρ c (Proc.devRef .tc main_v37_0)
    = Result.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans ((Region1.final6 (V3 m ρ) c).trans (head0_eq m ρ c))

theorem W4_res1 : W4 m ρ c (Proc.devRef .tc main_v37_1)
    = Result.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) :=
  (W4_arr m ρ c 7).trans ((Region1.final7 (V3 m ρ) c).trans (head1_eq m ρ c))

end Cert.Sage.KernelValue

end
-- ==== Proof.RefValue.lean ====
/-
  The reference program's two results, read index by index, are the layers of `Result.lean`.

  Reading each operation at an index: a sum over the shared axis for each matrix product, the quotient by the clamped
  count broadcast along a row, the bias broadcast down the rows, the rectifier. The neighbour sums and the edge
  counts the reference recomputes for the second layer (once per output head) are the same terms as the first
  layer's, of the hidden features instead of the node features.
-/
import proofs.«133211_j7421703487977_2_alg».proof.Proof.Gen.ReferenceIdeal.Read
import proofs.«133211_j7421703487977_2_alg».proof.Proof.Spec
import proofs.«133211_j7421703487977_2_alg».proof.Proof.Result
import Idealize.ShloMosaic.Lib.ValueIdx

noncomputable section

namespace Cert.Sage.Ref

open Idealize.ShloMosaic Idealize.ShloMosaic.ValueIdx
open Cert.ReferenceIdeal Cert.ReferenceIdeal.Read

/-! ## The composed index maps, at an index given by its coordinates -/

theorem lidx23 (n : Fin 50000) (j : Fin 128) (k : Fin 128) : lidx_main_v23 (ix2 n j) k = ix2 n k := funext fun a => Fin.ext (by match a with | ⟨0, _⟩ => rfl | ⟨1, _⟩ => rfl)
theorem ridx23 (n : Fin 50000) (j : Fin 128) (k : Fin 128) : ridx_main_v23 (ix2 n j) k = ix2 k j := funext fun a => Fin.ext (by match a with | ⟨0, _⟩ => rfl | ⟨1, _⟩ => rfl)
theorem lidx27 (n : Fin 50000) (j : Fin 128) (k : Fin 128) : lidx_main_v27 (ix2 n j) k = ix2 n k := funext fun a => Fin.ext (by match a with | ⟨0, _⟩ => rfl | ⟨1, _⟩ => rfl)
theorem ridx27 (n : Fin 50000) (j : Fin 128) (k : Fin 128) : ridx_main_v27 (ix2 n j) k = ix2 k j := funext fun a => Fin.ext (by match a with | ⟨0, _⟩ => rfl | ⟨1, _⟩ => rfl)
theorem idx21 (n : Fin 50000) (k : Fin 128) : idx_main_v21 (ix2 n k) = ix2 n (0 : Fin 1) := funext fun a => Fin.ext (by match a with | ⟨0, _⟩ => rfl | ⟨1, _⟩ => rfl)
theorem idx20 (n : Fin 50000) (u : Fin 1) : idx_main_v20 (ix2 n u) = ix1 n := funext fun a => Fin.ext (by match a with | ⟨0, _⟩ => rfl)
theorem idx25 (n : Fin 50000) (j : Fin 128) : idx_main_v25 (ix2 n j) = ix2 (0 : Fin 1) j := funext fun a => Fin.ext (by match a with | ⟨0, _⟩ => rfl | ⟨1, _⟩ => rfl)
theorem idx24 (u : Fin 1) (j : Fin 128) : idx_main_v24 (ix2 u j) = ix1 j := funext fun a => Fin.ext (by match a with | ⟨0, _⟩ => rfl)
theorem lidx49 (n : Fin 50000) (j : Fin 64) (k : Fin 128) : lidx_main_v49 (ix2 n j) k = ix2 n k := funext fun a => Fin.ext (by match a with | ⟨0, _⟩ => rfl | ⟨1, _⟩ => rfl)
theorem ridx49 (n : Fin 50000) (j : Fin 64) (k : Fin 128) : ridx_main_v49 (ix2 n j) k = ix2 k j := funext fun a => Fin.ext (by match a with | ⟨0, _⟩ => rfl | ⟨1, _⟩ => rfl)
theorem lidx53 (n : Fin 50000) (j : Fin 64) (k : Fin 128) : lidx_main_v53 (ix2 n j) k = ix2 n k := funext fun a => Fin.ext (by match a with | ⟨0, _⟩ => rfl | ⟨1, _⟩ => rfl)
theorem ridx53 (n : Fin 50000) (j : Fin 64) (k : Fin 128) : ridx_main_v53 (ix2 n j) k = ix2 k j := funext fun a => Fin.ext (by match a with | ⟨0, _⟩ => rfl | ⟨1, _⟩ => rfl)
theorem idx47 (n : Fin 50000) (k : Fin 128) : idx_main_v47 (ix2 n k) = ix2 n (0 : Fin 1) := funext fun a => Fin.ext (by match a with | ⟨0, _⟩ => rfl | ⟨1, _⟩ => rfl)
theorem idx46 (n : Fin 50000) (u : Fin 1) : idx_main_v46 (ix2 n u) = ix1 n := funext fun a => Fin.ext (by match a with | ⟨0, _⟩ => rfl)
theorem idx51 (n : Fin 50000) (j : Fin 64) : idx_main_v51 (ix2 n j) = ix2 (0 : Fin 1) j := funext fun a => Fin.ext (by match a with | ⟨0, _⟩ => rfl | ⟨1, _⟩ => rfl)
theorem idx50 (u : Fin 1) (j : Fin 64) : idx_main_v50 (ix2 u j) = ix1 j := funext fun a => Fin.ext (by match a with | ⟨0, _⟩ => rfl)
theorem lidx74 (n : Fin 50000) (j : Fin 64) (k : Fin 128) : lidx_main_v74 (ix2 n j) k = ix2 n k := funext fun a => Fin.ext (by match a with | ⟨0, _⟩ => rfl | ⟨1, _⟩ => rfl)
theorem ridx74 (n : Fin 50000) (j : Fin 64) (k : Fin 128) : ridx_main_v74 (ix2 n j) k = ix2 k j := funext fun a => Fin.ext (by match a with | ⟨0, _⟩ => rfl | ⟨1, _⟩ => rfl)
theorem lidx78 (n : Fin 50000) (j : Fin 64) (k : Fin 128) : lidx_main_v78 (ix2 n j) k = ix2 n k := funext fun a => Fin.ext (by match a with | ⟨0, _⟩ => rfl | ⟨1, _⟩ => rfl)
theorem ridx78 (n : Fin 50000) (j : Fin 64) (k : Fin 128) : ridx_main_v78 (ix2 n j) k = ix2 k j := funext fun a => Fin.ext (by match a with | ⟨0, _⟩ => rfl | ⟨1, _⟩ => rfl)
theorem idx72 (n : Fin 50000) (k : Fin 128) : idx_main_v72 (ix2 n k) = ix2 n (0 : Fin 1) := funext fun a => Fin.ext (by match a with | ⟨0, _⟩ => rfl | ⟨1, _⟩ => rfl)
theorem idx71 (n : Fin 50000) (u : Fin 1) : idx_main_v71 (ix2 n u) = ix1 n := funext fun a => Fin.ext (by match a with | ⟨0, _⟩ => rfl)
theorem idx76 (n : Fin 50000) (j : Fin 64) : idx_main_v76 (ix2 n j) = ix2 (0 : Fin 1) j := funext fun a => Fin.ext (by match a with | ⟨0, _⟩ => rfl | ⟨1, _⟩ => rfl)
theorem idx75 (u : Fin 1) (j : Fin 64) : idx_main_v75 (ix2 u j) = ix1 j := funext fun a => Fin.ext (by match a with | ⟨0, _⟩ => rfl)

/-! ## The stages -/

/-- The first layer's neighbour mean at row `n`, column `k`: the neighbour sum over the clamped count. -/
theorem v22_at (x0 : (⟨S50000x128, .f32⟩ : BufTy).Contents (Elt Ideal)) (x1 : (⟨S2x800000, .i32⟩ : BufTy).Contents (Elt Ideal)) (n : Fin 50000) (k : Fin 128) :
    val_main_v22 (F := Ideal) x0 x1 (ix2 n k)
      = Ideal.div (val_main_v13 (F := Ideal) x0 x1 (ix2 n k)) (max (val_main_v17 (F := Ideal) x1 (ix1 n)) one) := by
  rw [val_main_v22_apply, val_main_v21_apply, idx21, val_main_v20_apply, idx20, val_main_v19_apply, val_main_v18_apply,
    val_main_cst_3_apply]
  rfl

/-- The first layer's bias broadcast down the rows. -/
theorem v25_at (x3 : (⟨S128, .f32⟩ : BufTy).Contents (Elt Ideal)) (n : Fin 50000) (j : Fin 128) :
    val_main_v25 (F := Ideal) x3 (ix2 n j) = x3 (ix1 j) := by
  rw [val_main_v25_apply, idx25, val_main_v24_apply, idx24]

/-- The neighbour mean of the node features times the first layer's left weights. -/
theorem v23_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (n : Fin 50000) (j : Fin 128) :
    val_main_v23 (F := Ideal) x0 x1 x2 (ix2 n j)
      = ∑ k : Fin 128, Ideal.div (val_main_v13 (F := Ideal) x0 x1 (ix2 n k))
          (max (val_main_v17 (F := Ideal) x1 (ix1 n)) one) * x2 (ix2 k j) := by
  rw [val_main_v23_apply]
  refine Finset.sum_congr rfl fun k _ => ?_
  rw [lidx23, ridx23, v22_at]

/-- The node features times the first layer's right weights. -/
theorem v27_at (x0 : (⟨S50000x128, .f32⟩ : BufTy).Contents (Elt Ideal)) (x4 : (⟨S128x128, .f32⟩ : BufTy).Contents (Elt Ideal)) (n : Fin 50000) (j : Fin 128) :
    val_main_v27 (F := Ideal) x0 x4 (ix2 n j) = ∑ k : Fin 128, x0 (ix2 n k) * x4 (ix2 k j) := by
  rw [val_main_v27_apply]
  refine Finset.sum_congr rfl fun k _ => ?_
  rw [lidx27, ridx27]

/-- The hidden stage is the rectified layer of the node features. -/
theorem hid_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Result.hid x0 x1 x2 x3 x4 := by
  funext i
  obtain ⟨n, j, rfl⟩ : ∃ (n : Fin 50000) (j : Fin 128), i = ix2 n j := ⟨i 0, i 1, eq_ix2 i⟩
  rw [val_main_v29_apply, val_main_v28_apply, val_main_v26_apply, v23_at, v27_at, v25_at, val_main_call0_v0_apply,
    val_main_call0_cst_apply]
  unfold Result.hid
  rw [reluLayerArr_apply]
  unfold layer
  rfl

/-- The second layer's neighbour sums (first head) are the neighbour sums of the hidden stage. -/
theorem agg39 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v39 (F := Ideal) x0 x1 x2 x3 x4 = val_main_v13 (F := Ideal) (val_main_v29 (F := Ideal) x0 x1 x2 x3 x4) x1 := rfl

/-- The second layer's neighbour sums (second head) likewise. -/
theorem agg64 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v64 (F := Ideal) x0 x1 x2 x3 x4 = val_main_v13 (F := Ideal) (val_main_v29 (F := Ideal) x0 x1 x2 x3 x4) x1 := rfl

/-- The edge counts are recomputed, not changed. -/
theorem cnt43 (x1 : (⟨S2x800000, .i32⟩ : BufTy).Contents (Elt Ideal)) : val_main_v43 (F := Ideal) x1 = val_main_v17 (F := Ideal) x1 := rfl
theorem cnt68 (x1 : (⟨S2x800000, .i32⟩ : BufTy).Contents (Elt Ideal)) : val_main_v68 (F := Ideal) x1 = val_main_v17 (F := Ideal) x1 := rfl

/-- The second layer's neighbour mean (first head) at row `n`, column `k`. -/
theorem v48_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 50000) (k : Fin 128) :
    val_main_v48 (F := Ideal) x0 x1 x2 x3 x4 (ix2 n k)
      = Ideal.div (val_main_v13 (F := Ideal) (Result.hid x0 x1 x2 x3 x4) x1 (ix2 n k)) (max (val_main_v17 (F := Ideal) x1 (ix1 n)) one) := by
  rw [val_main_v48_apply, val_main_v47_apply, idx47, val_main_v46_apply, idx46, val_main_v45_apply, val_main_v44_apply,
    val_main_cst_9_apply, agg39, cnt43, hid_eq]
  rfl

/-- The second layer's neighbour mean (second head) at row `n`, column `k`. -/
theorem v73_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 50000) (k : Fin 128) :
    val_main_v73 (F := Ideal) x0 x1 x2 x3 x4 (ix2 n k)
      = Ideal.div (val_main_v13 (F := Ideal) (Result.hid x0 x1 x2 x3 x4) x1 (ix2 n k)) (max (val_main_v17 (F := Ideal) x1 (ix1 n)) one) := by
  rw [val_main_v73_apply, val_main_v72_apply, idx72, val_main_v71_apply, idx71, val_main_v70_apply, val_main_v69_apply,
    val_main_cst_15_apply, agg64, cnt68, hid_eq]
  rfl

/-- The bias of this head broadcast down the rows, at row `n`, column `j`. -/
theorem v51_at (x6 : (⟨S64, .f32⟩ : BufTy).Contents (Elt Ideal)) (n : Fin 50000) (j : Fin 64) :
    val_main_v51 (F := Ideal) x6 (ix2 n j) = x6 (ix1 j) := by
  rw [val_main_v51_apply, idx51, val_main_v50_apply, idx50]

/-- The neighbour mean of the hidden features times this head's left weights. -/
theorem v49_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (n : Fin 50000) (j : Fin 64) :
    val_main_v49 (F := Ideal) x0 x1 x2 x3 x4 x5 (ix2 n j)
      = ∑ k : Fin 128, Ideal.div (val_main_v13 (F := Ideal) (Result.hid x0 x1 x2 x3 x4) x1 (ix2 n k))
          (max (val_main_v17 (F := Ideal) x1 (ix1 n)) one) * x5 (ix2 k j) := by
  rw [val_main_v49_apply]
  refine Finset.sum_congr rfl fun k _ => ?_
  rw [lidx49, ridx49, v48_at]

/-- The hidden features times this head's right weights. -/
theorem v53_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x7 : (⟨S128x64, .f32⟩ : BufTy).Contents (Elt Ideal)) (n : Fin 50000) (j : Fin 64) :
    val_main_v53 (F := Ideal) x0 x1 x2 x3 x4 x7 (ix2 n j)
      = ∑ k : Fin 128, (Result.hid x0 x1 x2 x3 x4) (ix2 n k) * x7 (ix2 k j) := by
  rw [val_main_v53_apply]
  refine Finset.sum_congr rfl fun k _ => ?_
  rw [lidx53, ridx53, hid_eq]

/-- The first result is the first head's layer of the hidden features. -/
theorem res0_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v54 (F := Ideal) x0 x1 x2 x3 x4 x5 x6 x7 = Result.out x0 x1 x2 x3 x4 x5 x6 x7 := by
  funext i
  obtain ⟨n, j, rfl⟩ : ∃ (n : Fin 50000) (j : Fin 64), i = ix2 n j := ⟨i 0, i 1, eq_ix2 i⟩
  rw [val_main_v54_apply, val_main_v52_apply, v49_at, v53_at, v51_at]
  unfold Result.out
  rw [layerArr_apply]
  unfold layer
  rfl

/-- The bias of this head broadcast down the rows, at row `n`, column `j`. -/
theorem v76_at (x9 : (⟨S64, .f32⟩ : BufTy).Contents (Elt Ideal)) (n : Fin 50000) (j : Fin 64) :
    val_main_v76 (F := Ideal) x9 (ix2 n j) = x9 (ix1 j) := by
  rw [val_main_v76_apply, idx76, val_main_v75_apply, idx75]

/-- The neighbour mean of the hidden features times this head's left weights. -/
theorem v74_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128x64, .f32⟩ : BufTy).Contents (Elt Ideal)) (n : Fin 50000) (j : Fin 64) :
    val_main_v74 (F := Ideal) x0 x1 x2 x3 x4 x8 (ix2 n j)
      = ∑ k : Fin 128, Ideal.div (val_main_v13 (F := Ideal) (Result.hid x0 x1 x2 x3 x4) x1 (ix2 n k))
          (max (val_main_v17 (F := Ideal) x1 (ix1 n)) one) * x8 (ix2 k j) := by
  rw [val_main_v74_apply]
  refine Finset.sum_congr rfl fun k _ => ?_
  rw [lidx74, ridx74, v73_at]

/-- The hidden features times this head's right weights. -/
theorem v78_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x10 : (⟨S128x64, .f32⟩ : BufTy).Contents (Elt Ideal)) (n : Fin 50000) (j : Fin 64) :
    val_main_v78 (F := Ideal) x0 x1 x2 x3 x4 x10 (ix2 n j)
      = ∑ k : Fin 128, (Result.hid x0 x1 x2 x3 x4) (ix2 n k) * x10 (ix2 k j) := by
  rw [val_main_v78_apply]
  refine Finset.sum_congr rfl fun k _ => ?_
  rw [lidx78, ridx78, hid_eq]

/-- The second result is the second head's layer of the hidden features. -/
theorem res1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) :
    val_main_v79 (F := Ideal) x0 x1 x2 x3 x4 x8 x9 x10 = Result.out x0 x1 x2 x3 x4 x8 x9 x10 := by
  funext i
  obtain ⟨n, j, rfl⟩ : ∃ (n : Fin 50000) (j : Fin 64), i = ix2 n j := ⟨i 0, i 1, eq_ix2 i⟩
  rw [val_main_v79_apply, val_main_v77_apply, v74_at, v78_at, v76_at]
  unfold Result.out
  rw [layerArr_apply]
  unfold layer
  rfl

end Cert.Sage.Ref

end
-- ==== Proof.lean ====
/-
  A two-layer graph encoder with mean aggregation: the kernel program against its reference, on the extended reals.

  Both programs read an edge list and, for every node, sum the feature rows of the nodes with an edge into it and count
  those edges. A layer is then, at node `p` and output feature `q`,

      (∑ₖ (A p k / max (cnt p) 1) · Wl k q) + b q + ∑ₖ X p k · Wr k q ,

  and the programs compute a rectified layer of the node features (the hidden features) followed by two layers of the
  hidden features, one per output head. The reference computes exactly this. The kernel program differs in three ways:
  it multiplies the neighbour sums by a reciprocal `1 / max (cnt p) 1` computed once, where the reference divides; it adds
  the bias after both products, where the reference adds it between them; and it computes the two heads as ONE layer over
  weights laid side by side, storing the two halves of the columns. None of the three changes a value at any extended
  real (`Proof/Spec.lean`, `Proof/Heads.lean`), so the claim holds for all inputs and the precondition is not used.
  The gathers and scatter-adds are the same host operations in both programs and are never opened.

  `Proof/KernelRun.lean` is the kernel program's run with its results named; `Proof/Region0.lean`, `Region1.lean` say what
  each grid leaves in its outputs; `Proof/HostA.lean`, `HostB.lean` read the host operations around the grids;
  `Proof/KernelValue.lean` composes them; `Proof/RefValue.lean` reads the reference. The idealized kernel program is the
  kernel program's own text read at the extended reals, no operation replaced, so `preserves` asks nothing.
-/
import proofs.«133211_j7421703487977_2_alg».proof.Defs
import proofs.«133211_j7421703487977_2_alg».proof.Proof.Gen.Kernel
import proofs.«133211_j7421703487977_2_alg».proof.Proof.Gen.Kernel.Skeleton
import proofs.«133211_j7421703487977_2_alg».proof.Proof.Gen.Kernel.Launch
import proofs.«133211_j7421703487977_2_alg».proof.Proof.Gen.Kernel.Points
import proofs.«133211_j7421703487977_2_alg».proof.Proof.Gen.Kernel.Frame
import proofs.«133211_j7421703487977_2_alg».proof.Proof.Gen.KernelIdeal
import proofs.«133211_j7421703487977_2_alg».proof.Proof.Gen.KernelIdeal.Skeleton
import proofs.«133211_j7421703487977_2_alg».proof.Proof.Gen.KernelIdeal.Launch
import proofs.«133211_j7421703487977_2_alg».proof.Proof.Gen.KernelIdeal.Points
import proofs.«133211_j7421703487977_2_alg».proof.Proof.Gen.KernelIdeal.Frame
import proofs.«133211_j7421703487977_2_alg».proof.Proof.Gen.ReferenceIdeal
import proofs.«133211_j7421703487977_2_alg».proof.Proof.Gen.Pre_finite_inputs
import proofs.«133211_j7421703487977_2_alg».proof.Proof.Gen.ReferenceIdeal.Run
import proofs.«133211_j7421703487977_2_alg».proof.Proof.Gen.ReferenceIdeal.Read
import proofs.«133211_j7421703487977_2_alg».proof.Proof.Result
import proofs.«133211_j7421703487977_2_alg».proof.Proof.KernelRun
import proofs.«133211_j7421703487977_2_alg».proof.Proof.KernelValue
import proofs.«133211_j7421703487977_2_alg».proof.Proof.RefValue
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized program replaces no operation of the original: nothing to state. -/
theorem preserves : Cert.preserves_Kernel_KernelIdeal := trivial

/-- From memories that agree on the arguments both programs end with each result at the same head's layer of the
    hidden features of the arguments. -/
theorem algebraic : Cert.algebraic_KernelIdeal_ReferenceIdeal := by
  intro m ρ m' ρ' _ hagree
  refine ⟨fun c => Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (KernelValue.W4_res0 m ρ c), (h c).2.1.trans (KernelValue.W4_res1 m ρ c), (h c).2.2⟩)
      (KernelRun.run (F := Ideal) m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.val_main_v54_eq m' c).trans ((Ref.res0_eq _ _ _ _ _ _ _ _).trans ?_))
      obtain ⟨a0, a1, a2, a3, a4, a5, a6, a7, -⟩ := hagree c
      rw [a0, a1, a2, a3, a4, a5, a6, a7]
    · refine (h c).2.1.trans ((Cert.ReferenceIdeal.Read.val_main_v79_eq m' c).trans ((Ref.res1_eq _ _ _ _ _ _ _ _).trans ?_))
      obtain ⟨a0, a1, a2, a3, a4, -, -, -, a8, a9, a10⟩ := hagree c
      rw [a0, a1, a2, a3, a4, a8, a9, a10]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
